-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4x2048x4096 .f32) (main_arg1 : FVec F S4096x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4x2048x4096 : Shape := ⟨3, ![4, 2048, 4096]⟩
abbrev S4096x4096 : Shape := ⟨2, ![4096, 4096]⟩
abbrev S8192x4096 : Shape := ⟨2, ![8192, 4096]⟩
abbrev S2048x256 : Shape := ⟨2, ![2048, 256]⟩
abbrev S2048x2048 : Shape := ⟨2, ![2048, 2048]⟩

abbrev nBuf : Space → Nat
  | .hbm => 8
  | .vmem => 6
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4x2048x4096, .bf16⟩
  | .hbm, ⟨3, _⟩ => ⟨S4096x4096, .f32⟩
  | .hbm, ⟨4, _⟩ => ⟨S4096x4096, .bf16⟩
  | .hbm, ⟨5, _⟩ => ⟨S8192x4096, .bf16⟩
  | .hbm, ⟨6, _⟩ => ⟨S8192x4096, .f32⟩
  | .hbm, ⟨7, _⟩ => ⟨S4x2048x4096, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x2048, .f32⟩
  | .local _ .vmem, ⟨5, _⟩ => ⟨S2048x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  bitsLt_bf16_f32 : FTy.bits .bf16 < FTy.bits .f32
  shapeCasts_S4x2048x4096_S8192x4096 : S4x2048x4096.ShapeCasts S8192x4096
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  shapeCasts_S8192x4096_S4x2048x4096 : S8192x4096.ShapeCasts S4x2048x4096
  dot_S2048x256_S2048x256_S2048x2048_1_1_0_0_n_n_wf : DotDims.WF S2048x256 S2048x256 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x4096.size a
  hwx0_0 : ∀ i : grid0.Coords, EltTy.bits .bf16 = 32 ∨ (Rect.block (s := S8192x4096) S2048x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S4096x4096.size a
  hwx0_1 : ∀ i : grid0.Coords, EltTy.bits .bf16 = 32 ∨ (Rect.block (s := S4096x4096) S2048x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S8192x4096.size a
  hwx0_2 : ∀ i : grid0.Coords, EltTy.bits .f32 = 32 ∨ (Rect.block (s := S8192x4096) S2048x2048.size (cc0_transform_2 i) (hinb0_2 i)).WholeWords (EltTy.packing .f32)

variable [Facts₀]

def dot_S2048x256_S2048x256_S2048x2048_1_1_0_0_n_n : DotDims S2048x256 S2048x256 S2048x2048 where
  lhsContracting := [1]
  rhsContracting := [1]
  lhsNonContracting := [0]
  rhsNonContracting := [0]
  lhsBatch := []
  rhsBatch := []
  wf := dot_S2048x256_S2048x256_S2048x2048_1_1_0_0_n_n_wf

abbrev win0_0 : Pipeline.Window sig grid0 :=
  Pipeline.Window.ofSpec (Memref.whole main_v3) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2048x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]

class Facts₀ : Prop where
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Body.lean ====
/-
  What one grid step leaves in the output block's buffer, as a value. The body either starts a new
  accumulation (first step along the contraction axis: the buffer is reset to zero, read back, and the step's
  product block added) or continues one (the buffer's contents plus the step's product block). Both are one
  store that covers the whole block, so what the buffer holds afterwards is that store's value: the step
  function applied to the zero block, respectively to what the buffer held before.
-/
import proofs.«121071_j57492432224590_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.Tactic

namespace Cert.KernelIdeal.BodyValue

open Cert.KernelIdeal Cert.KernelIdeal.Gen

variable {F : FTy → Type} [FloatOps F]

/-- The whole-block accesses start at the origin. -/
theorem origin : (![0, 0] : Fin 2 → Nat) = fun _ => 0 := funext fun a => by fin_cases a <;> rfl

/-- A continuing step: the buffer held `acc`; it ends holding the step function of `acc` and the two input blocks. -/
theorem continue_eq (c : Dev nD) (i : grid0.Coords) (a3 : Memref sig .tc .vmem S2048x256 .bf16) (h3 : a3.IsWhole)
    (a4 : Memref sig .tc .vmem S2048x256 .bf16) (h4 : a4.IsWhole) (a5 : Memref sig .tc .vmem S2048x2048 .f32) (h5 : a5.IsWhole)
    (hc : ¬cond0_0 i) (x0 x1 : Vec F S2048x256 .bf16) (acc : Vec F S2048x2048 .f32) :
    out0_B_2 c i a3 h3 a4 h4 a5 h5 hc x0 x1 acc = k0_pay2 acc x0 x1 := by
  unfold out0_B_2
  rw [View.read_writes_eq_canon _ _ _ (cover0_B_2 c i a3 h3 a4 h4 a5 h5 hc x0 x1 acc)]
  unfold kernelRun0_B
  dsimp only
  rw [View.canon_unit_zero origin]
  simp only [View.readAt_eq_ld, h3.read_unread, h4.read_unread, h5.read_unread,
    View.ld_unit_zero (S := S2048x2048) origin, View.ld_unit_zero (S := S2048x256) origin]

/-- A starting step: the buffer ends holding the step function of the zero block and the two input blocks. -/
theorem start_eq (c : Dev nD) (i : grid0.Coords) (a3 : Memref sig .tc .vmem S2048x256 .bf16) (h3 : a3.IsWhole)
    (a4 : Memref sig .tc .vmem S2048x256 .bf16) (h4 : a4.IsWhole) (a5 : Memref sig .tc .vmem S2048x2048 .f32) (h5 : a5.IsWhole)
    (hc : cond0_0 i) (x0 x1 : Vec F S2048x256 .bf16) :
    out0_A_2 c i a3 h3 a4 h4 a5 h5 hc x0 x1 = k0_pay2 (k0_pay1 (F := F)) x0 x1 := by
  unfold out0_A_2
  rw [View.read_writes_eq_canon _ _ _ (cover0_A_2 c i a3 h3 a4 h4 a5 h5 hc x0 x1)]
  unfold kernelRun0_A
  dsimp only
  sl_unfold_words
  rw [View.canon_cons_unit_zero (S := S2048x2048) origin, View.readCov_unit_zero (S := S2048x2048) _ origin]
  simp only [View.readAt_eq_ld, h3.read_unread, h4.read_unread, View.ld_unit_zero (S := S2048x256) origin]

end Cert.KernelIdeal.BodyValue

end
-- ==== Proof.Step.lean ====
/-
  The step function at an entry, over the extended reals. One grid step adds to entry (r, s) of the output
  block the dot product, over the step's 256 contraction positions, of row r of the activation block with
  row s of the weight block: the block product contracts the second axis of both operands, so the entry
  pairs a row with a row. The reset block is zero at every entry.
-/
import proofs.«121071_j57492432224590_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.StepAt

open Cert.KernelIdeal Cert.KernelIdeal.Gen Idealize.ShloMosaic Idealize.ShloMosaic.ValueIdx

/-- The block product's dimension record: contract axis 1 of both operands. -/
abbrev D : DotDims S2048x256 S2048x256 S2048x2048 := dot_S2048x256_S2048x256_S2048x2048_1_1_0_0_n_n

/-- The left operand is read at the output entry's row … -/
theorem lhs_row (i : S2048x2048.Idx) (q : D.contr.Idx) : (D.lhsIdx i q 0).val = (i 0).val := by
  unfold DotDims.lhsIdx
  rw [dif_neg (show ¬(0 : Fin S2048x256.rank) ∈ D.lhsBatch by decide), dif_pos (show (0 : Fin S2048x256.rank) ∈ D.lhsNonContracting by decide)]
  rfl
/-- … at the contraction position; -/
theorem lhs_pos (i : S2048x2048.Idx) (q : D.contr.Idx) : (D.lhsIdx i q 1).val = (q ⟨0, by decide⟩).val :=
  D.lhsIdx_val_of_single rfl i q
/-- the right operand at the output entry's column, as a ROW of the weight block, … -/
theorem rhs_row (i : S2048x2048.Idx) (q : D.contr.Idx) : (D.rhsIdx i q 0).val = (i 1).val := by
  unfold DotDims.rhsIdx
  rw [dif_neg (show ¬(0 : Fin S2048x256.rank) ∈ D.rhsBatch by decide), dif_pos (show (0 : Fin S2048x256.rank) ∈ D.rhsNonContracting by decide)]
  rfl
/-- … at the same contraction position. -/
theorem rhs_pos (i : S2048x2048.Idx) (q : D.contr.Idx) : (D.rhsIdx i q 1).val = (q ⟨0, by decide⟩).val :=
  D.rhsIdx_val_of_single rfl i q

/-- The reset block is zero at every entry. -/
theorem reset_apply (j : S2048x2048.Idx) : k0_pay1 (F := Ideal) j = 0 := by
  show Ideal.ofBits .f32 0x00000000#32 = 0
  exact Ideal.ofBits_zero_f32

/-- The step function at entry (r, s): the accumulator's entry plus Σ_q x0[r, q] · x1[s, q]. -/
theorem step_apply (acc : Vec Ideal S2048x2048 .f32) (x0 x1 : Vec Ideal S2048x256 .bf16) (r s : Fin 2048) :
    k0_pay2 (F := Ideal) acc x0 x1 (ix2 r s) = acc (ix2 r s) + ∑ q : Fin 256, x0 (ix2 r q) * x1 (ix2 s q) := by
  unfold k0_pay2
  show (addf (F := Ideal) (shapeCast S2048x2048 acc shapeCasts_S2048x2048_S2048x2048)
      (matmul (F := Ideal) D none (shapeCast S2048x256 x0 shapeCasts_S2048x256_S2048x256)
          (shapeCast S2048x256 x1 shapeCasts_S2048x256_S2048x256) (constant (F := Ideal) S2048x2048 .f32 0x00000000#32))) (ix2 r s) = _
  rw [shapeCast_self, shapeCast_self, shapeCast_self]
  refine congrArg (acc (ix2 r s) + ·) ?_
  refine (Ideal.matmul_constant_zero_apply (φ₁ := .bf16) (φ₂ := .bf16) D none x0 x1 (ix2 r s)).trans ?_
  rw [← Equiv.sum_comp (contrEquiv1 D 256 rfl rfl).symm]
  refine Finset.sum_congr rfl fun q _ => ?_
  have hq := contrEquiv1_symm_val D 256 rfl rfl q
  have el : D.lhsIdx (ix2 r s) ((contrEquiv1 D 256 rfl rfl).symm q) = ix2 r q := funext fun a => Fin.ext (by
    match a with
    | ⟨0, _⟩ => exact lhs_row _ _
    | ⟨1, _⟩ => exact (lhs_pos _ _).trans hq)
  have er : D.rhsIdx (ix2 r s) ((contrEquiv1 D 256 rfl rfl).symm q) = ix2 s q := funext fun a => Fin.ext (by
    match a with
    | ⟨0, _⟩ => exact rhs_row _ _
    | ⟨1, _⟩ => exact (rhs_pos _ _).trans hq)
  rw [el, er]

end Cert.KernelIdeal.StepAt

end
-- ==== Proof.Partial.lean ====
/-
  Partial dot products. The kernel forms each output entry as a sum of sixteen pieces, one per block of 256
  contraction positions; after the `j`-th piece the entry holds the dot product over the first 256·(j+1)
  positions. This module names that quantity over natural-number coordinates (so that block arithmetic is
  arithmetic of naturals) and states how it grows by one block. Addition of extended reals is associative
  and commutative, so no finiteness is needed to regroup the sum.
-/
import Idealize.ShloMosaic.PureOps.Ideal
import Idealize.ShloMosaic.Lib.ValueIdx

noncomputable section

namespace Cert.Partial

open Idealize.ShloMosaic Idealize.ShloMosaic.ValueIdx

/-- The entry of a matrix at natural-number coordinates; zero outside the matrix. -/
def at2 {n0 n1 : Nat} (A : (⟨2, ![n0, n1]⟩ : Shape).Idx → EReal) (r c : ℕ) : EReal :=
  if h : r < n0 ∧ c < n1 then A (ix2 ⟨r, h.1⟩ ⟨c, h.2⟩) else 0

/-- An entry read at an index is the entry at that index's coordinates. -/
theorem at2_eq {n0 n1 : Nat} (A : (⟨2, ![n0, n1]⟩ : Shape).Idx → EReal) (e : (⟨2, ![n0, n1]⟩ : Shape).Idx) (r c : ℕ)
    (h0 : (e 0).val = r) (h1 : (e 1).val = c) : A e = at2 A r c := by
  subst h0 h1
  unfold at2
  rw [dif_pos ⟨idx2_lt0 e, idx2_lt1 e⟩]
  exact congrArg A (eq_ix2 e)

/-- The dot product of row `R` of `X` with row `C` of `W` over the first `n` positions. -/
def dotTo {n0 n1 n2 : Nat} (X : (⟨2, ![n0, n2]⟩ : Shape).Idx → EReal) (W : (⟨2, ![n1, n2]⟩ : Shape).Idx → EReal)
    (n R C : ℕ) : EReal :=
  ∑ q ∈ Finset.range n, at2 X R q * at2 W C q

/-- Over no positions it is zero. -/
theorem dotTo_zero {n0 n1 n2 : Nat} (X : (⟨2, ![n0, n2]⟩ : Shape).Idx → EReal) (W : (⟨2, ![n1, n2]⟩ : Shape).Idx → EReal)
    (R C : ℕ) : dotTo X W 0 R C = 0 := Finset.sum_range_zero _

/-- One more block of `k` positions adds that block's products. -/
theorem dotTo_add {n0 n1 n2 : Nat} (X : (⟨2, ![n0, n2]⟩ : Shape).Idx → EReal) (W : (⟨2, ![n1, n2]⟩ : Shape).Idx → EReal)
    (n k R C : ℕ) :
    dotTo X W (n + k) R C = dotTo X W n R C + ∑ q : Fin k, at2 X R (n + q.val) * at2 W C (n + q.val) := by
  unfold dotTo
  rw [Finset.sum_range_add]
  exact congrArg _ (Finset.sum_range fun q => at2 X R (n + q) * at2 W C (n + q))

/-- Over all `n` positions it is the sum over `Fin n`. -/
theorem dotTo_fin {n0 n1 n2 : Nat} (X : (⟨2, ![n0, n2]⟩ : Shape).Idx → EReal) (W : (⟨2, ![n1, n2]⟩ : Shape).Idx → EReal)
    (n R C : ℕ) : dotTo X W n R C = ∑ q : Fin n, at2 X R q.val * at2 W C q.val :=
  Finset.sum_range _

end Cert.Partial

end
-- ==== Proof.Accum.lean ====
/-
  The accumulation across the grid. The grid has 4 · 2 · 16 points, the last axis fastest: point n works on
  row block n / 32 of the activation matrix (8192 rows of 4096), on row block (n / 16) mod 2 of the sign
  matrix (4096 rows of 4096), and on contraction block n mod 16 (256 positions). The output block is kept
  across the sixteen points that share its row blocks; the first of them starts from zero. So after point n
  entry (r, s) of the buffer holds the dot product of activation row (n / 32)·2048 + r with sign row
  ((n / 16) mod 2)·2048 + s over the first 256·(n mod 16 + 1) positions: by induction on the point.
-/
import proofs.«121071_j57492432224590_2_alg».proof.Proof.Body
import proofs.«121071_j57492432224590_2_alg».proof.Proof.Step
import proofs.«121071_j57492432224590_2_alg».proof.Proof.Partial

noncomputable section

open Idealize.ShloMosaic Idealize.ShloMosaic.TcCoe Idealize.SL.Sem Idealize.ShloMosaic.ValueIdx

namespace Cert.KernelIdeal.Accum

open Cert.KernelIdeal Cert.KernelIdeal.Gen Cert.Partial Cert.KernelIdeal.BodyValue Cert.KernelIdeal.StepAt

variable (m : (ℓ : Loc nD τ sig) → Buf (Elt Ideal) ℓ)

/-- The activation matrix the kernel is launched on: 8192 rows (batch · sequence) of 4096 input features. -/
abbrev actM (c : Dev nD) : S8192x4096.Idx → EReal := V m c main_v3
/-- The sign matrix it is launched on: 4096 rows (output features) of 4096 input features. -/
abbrev sgnM (c : Dev nD) : S4096x4096.Idx → EReal := V m c main_v2

/-- The activation block point n is given: 2048 rows of 256 positions. -/
abbrev actBlk (c : Dev nD) (n : ℕ) (h : n < cfg0.N) : S2048x256.Idx → EReal := iblk m c 0 ⟨n, h⟩
/-- The sign block point n is given: 2048 rows of 256 positions. -/
abbrev sgnBlk (c : Dev nD) (n : ℕ) (h : n < cfg0.N) : S2048x256.Idx → EReal := iblk m c 1 ⟨n, h⟩

/-- Which block of each matrix a point works on, decided over the 128 points. -/
theorem block_of_point : ∀ t : Fin cfg0.N,
    win0_0.index t (0 : Fin 2) = t.val / 32 ∧ win0_0.index t (1 : Fin 2) = t.val % 16
    ∧ win0_1.index t (0 : Fin 2) = t.val / 16 % 2 ∧ win0_1.index t (1 : Fin 2) = t.val % 16
    ∧ win0_2.index t (0 : Fin 2) = t.val / 32 ∧ win0_2.index t (1 : Fin 2) = t.val / 16 % 2 :=
  (by decide +kernel : ∀ t : Fin grid0.N, _)

/-- Entry (r, q) of the activation block at point n is the matrix entry at row (n / 32)·2048 + r, position (n mod 16)·256 + q. -/
theorem act_block (c : Dev nD) (n : ℕ) (h : n < cfg0.N) (r : Fin 2048) (q : Fin 256) (R Q : ℕ)
    (hR : R = n / 32 * 2048 + r.val) (hQ : Q = n % 16 * 256 + q.val) :
    actBlk m c n h (ix2 r q) = at2 (actM m c) R Q := by
  obtain ⟨e0, e1, -⟩ := block_of_point ⟨n, h⟩
  have e0' : win0_0.index ⟨n, h⟩ (0 : Fin 2) = n / 32 := e0
  have e1' : win0_0.index ⟨n, h⟩ (1 : Fin 2) = n % 16 := e1
  show V m c main_v3 (((cfg0.win 0).blk ⟨n, h⟩).view.emb (ix2 r q)) = _
  refine at2_eq (actM m c) _ R Q ?_ ?_
  · show win0_0.index ⟨n, h⟩ (0 : Fin 2) * 2048 + 1 * r.val = R
    rw [e0', hR]; omega
  · show win0_0.index ⟨n, h⟩ (1 : Fin 2) * 256 + 1 * q.val = Q
    rw [e1', hQ]; omega

/-- Entry (s, q) of the sign block at point n is the matrix entry at row ((n / 16) mod 2)·2048 + s, position (n mod 16)·256 + q. -/
theorem sgn_block (c : Dev nD) (n : ℕ) (h : n < cfg0.N) (s : Fin 2048) (q : Fin 256) (R Q : ℕ)
    (hR : R = n / 16 % 2 * 2048 + s.val) (hQ : Q = n % 16 * 256 + q.val) :
    sgnBlk m c n h (ix2 s q) = at2 (sgnM m c) R Q := by
  obtain ⟨-, -, e0, e1, -⟩ := block_of_point ⟨n, h⟩
  have e0' : win0_1.index ⟨n, h⟩ (0 : Fin 2) = n / 16 % 2 := e0
  have e1' : win0_1.index ⟨n, h⟩ (1 : Fin 2) = n % 16 := e1
  show V m c main_v2 (((cfg0.win 1).blk ⟨n, h⟩).view.emb (ix2 s q)) = _
  refine at2_eq (sgnM m c) _ R Q ?_ ?_
  · show win0_1.index ⟨n, h⟩ (0 : Fin 2) * 2048 + 1 * s.val = R
    rw [e0', hR]; omega
  · show win0_1.index ⟨n, h⟩ (1 : Fin 2) * 256 + 1 * q.val = Q
    rw [e1', hQ]; omega

/-- The products one point adds to entry (r, s): the two rows over the point's 256 positions. -/
theorem block_sum (c : Dev nD) (n : ℕ) (h : n < cfg0.N) (r s : Fin 2048) :
    (∑ q : Fin 256, actBlk m c n h (ix2 r q) * sgnBlk m c n h (ix2 s q))
      = ∑ q : Fin 256, at2 (actM m c) (n / 32 * 2048 + r.val) (256 * (n % 16) + q.val)
          * at2 (sgnM m c) (n / 16 % 2 * 2048 + s.val) (256 * (n % 16) + q.val) :=
  Finset.sum_congr rfl fun q _ => by
    rw [act_block m c n h r q (n / 32 * 2048 + r.val) (256 * (n % 16) + q.val) rfl (by omega),
      sgn_block m c n h s q (n / 16 % 2 * 2048 + s.val) (256 * (n % 16) + q.val) rfl (by omega)]

/-- A point that starts an accumulation leaves the dot product over its own 256 positions, the first ones. -/
theorem start_case (c : Dev nD) (n : ℕ) (h : n < cfg0.N) (h0 : n % 16 = 0) (r s : Fin 2048) :
    outsAt0 m c n h (ix2 r s)
      = dotTo (actM m c) (sgnM m c) (256 * (n % 16 + 1)) (n / 32 * 2048 + r.val) (n / 16 % 2 * 2048 + s.val) := by
  rw [outsAt0_A m c ⟨n, h⟩ h0, start_eq,
    step_apply (k0_pay1 (F := Ideal)) (actBlk m c n h) (sgnBlk m c n h) r s, reset_apply, zero_add,
    block_sum m c n h r s, h0, show 256 * (0 + 1) = 0 + 256 from rfl, dotTo_add, dotTo_zero, zero_add]

/-- After point n the buffer's entry (r, s) is the dot product over the first 256·(n mod 16 + 1) positions. -/
theorem acc_apply (c : Dev nD) : ∀ (n : ℕ) (h : n < cfg0.N) (r s : Fin 2048),
    outsAt0 m c n h (ix2 r s)
      = dotTo (actM m c) (sgnM m c) (256 * (n % 16 + 1)) (n / 32 * 2048 + r.val) (n / 16 % 2 * 2048 + s.val)
  | 0, h, r, s => start_case m c 0 h rfl r s
  | n + 1, h, r, s => by
    by_cases h0 : (n + 1) % 16 = 0
    · exact start_case m c (n + 1) h h0 r s
    · rw [outsAt0_B m c ⟨n + 1, h⟩ h0, continue_eq]
      show k0_pay2 (F := Ideal) (outsAt0 m c n (Nat.lt_of_succ_lt h)) (iblk m c 0 ⟨n + 1, h⟩) (iblk m c 1 ⟨n + 1, h⟩) (ix2 r s) = _
      rw [step_apply (outsAt0 m c n (Nat.lt_of_succ_lt h)) (actBlk m c (n + 1) h) (sgnBlk m c (n + 1) h) r s,
        acc_apply c n (Nat.lt_of_succ_lt h) r s, block_sum m c (n + 1) h r s]
      have e1 : (n + 1) / 32 = n / 32 := by omega
      have e2 : (n + 1) / 16 % 2 = n / 16 % 2 := by omega
      have e3 : (n + 1) % 16 = n % 16 + 1 := by omega
      rw [e1, e2, e3, show 256 * (n % 16 + 1 + 1) = 256 * (n % 16 + 1) + 256 from by omega, dotTo_add]

end Cert.KernelIdeal.Accum

end
-- ==== Proof.Spec.lean ====
/-
  The specification. Both programs compute, over the extended reals,

      out[b, s, o] = Σ_{k < 4096} x[b, s, k] · sgn(w[o, k]),

  a linear layer whose weight has been replaced by its sign. This module states that function of the two
  argument arrays index by index, and the one law under which the reference's spelling of the weight,
  w + (sgn w − w), is sgn w: it holds for a real w; at an infinite w it fails (⊤ + (1 − ⊤) = ⊥), which is
  why the claim is made of finite inputs.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The activations' shape (batch, sequence, input feature), which is also the result's (batch, sequence, output feature). -/
abbrev SX : Shape := ⟨3, ![4, 2048, 4096]⟩
/-- The weight's shape (output feature, input feature). -/
abbrev SW : Shape := ⟨2, ![4096, 4096]⟩

/-- Where the result at `i = (b, s, o)` reads the activations for the `k`-th term: `(b, s, k)`. -/
abbrev xAt (i : SX.Idx) (k : Fin 4096) : SX.Idx := fun a => match a with
  | ⟨0, _⟩ => ⟨(i 0).val, (i 0).isLt⟩
  | ⟨1, _⟩ => ⟨(i 1).val, (i 1).isLt⟩
  | ⟨2, _⟩ => ⟨k.val, k.isLt⟩

/-- Where it reads the weight: `(o, k)`. -/
abbrev wAt (i : SX.Idx) (k : Fin 4096) : SW.Idx := fun a => match a with
  | ⟨0, _⟩ => ⟨(i 2).val, (i 2).isLt⟩
  | ⟨1, _⟩ => ⟨k.val, k.isLt⟩

/-- The result: row `(b, s)` of the activations against the signs of row `o` of the weight. -/
def out (x : SX.Idx → EReal) (w : SW.Idx → EReal) : SX.Idx → EReal :=
  fun i => ∑ k : Fin 4096, x (xAt i k) * Ideal.sign (w (wAt i k))

/-- For a real `w`, `w + (sgn w − w) = sgn w`: all three terms are real, and the reals cancel. -/
theorem proxy_eq_sign (r : ℝ) :
    (r : EReal) + (Ideal.sign (r : EReal) - (r : EReal)) = Ideal.sign (r : EReal) := by
  rw [Ideal.sign_coe, ← EReal.coe_sub, ← EReal.coe_add]
  exact congrArg _ (by ring)

end Cert.Spec

end
-- ==== Proof.Result.lean ====
/-
  The kernel's result. Each 2048 × 2048 output block is written back once, after the last of its sixteen
  points, when it holds the full dot products (all 4096 positions); the eight blocks tile the 8192 × 4096
  product matrix, so that matrix ends holding, at (R, C), the dot product of activation row R with sign
  row C. Around the kernel the host only changes formats (the identity here), takes signs, and reshapes:
  the activation matrix's row b·2048 + s is row (b, s) of the activations, and the result's entry
  (b, s, o) is the product matrix's entry (b·2048 + s, o). So the result is the specification.
-/
import proofs.«121071_j57492432224590_2_alg».proof.Proof.Accum
import proofs.«121071_j57492432224590_2_alg».proof.Proof.Spec
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.Partial Cert.KernelIdeal.Accum

variable (m : (ℓ : Loc nD τ sig) → Buf (Elt Ideal) ℓ) (ρ : Dev nD → PrngReg)

/-- The product matrix: at (R, C) the dot product of activation row R with sign row C over all 4096 positions. -/
abbrev prodM (c : Dev nD) : Buf (Elt Ideal) ((c : Thread nD τ).loc main_v4) :=
  (fun e : S8192x4096.Idx => dotTo (actM m c) (sgnM m c) 4096 (e 0).val (e 1).val : S8192x4096.Idx → EReal)

/-- The accumulation invariant at any entry of the block. -/
theorem acc_at (c : Dev nD) (n : ℕ) (h : n < cfg0.N) (y : S2048x2048.Idx) :
    outsAt0 m c n h y
      = dotTo (actM m c) (sgnM m c) (256 * (n % 16 + 1)) (n / 32 * 2048 + (y 0).val) (n / 16 % 2 * 2048 + (y 1).val) :=
  (congrArg (outsAt0 m c n h) (eq_ix2 y)).trans (acc_apply m c n h (y 0) (y 1))

/-- What a write-back writes is that point's block of the product matrix. -/
theorem flushed_eq (c : Dev nD) (t : Fin cfg0.N) (hf : (cfg0.win 2).flush t = true) :
    (dats m 0 c).flushed 2 t = ((cfg0.win 2).blk t).view.read (Elt Ideal) (prodM m c) := by
  have h15 : t.val % 16 = 15 := (flush0_2 t).mp hf
  obtain ⟨-, -, -, -, e0, e1⟩ := block_of_point t
  show (cfg0.win 2).cut (grid0.coords t) ((dats m 0 c).after 2 t) = _
  rw [after0_2]
  funext y
  show outsAt0 m c t.val t.isLt y
    = dotTo (actM m c) (sgnM m c) 4096 (win0_2.index t (0 : Fin 2) * 2048 + 1 * (y 0).val) (win0_2.index t (1 : Fin 2) * 2048 + 1 * (y 1).val)
  rw [acc_at m c t.val t.isLt y, h15, e0, e1, Nat.one_mul, Nat.one_mul]

/-- Every entry of the product matrix lies in a block that is written back: the last point of its block's sixteen. -/
theorem covered (c : Dev nD) (i : S8192x4096.Idx) :
    ∃ t : Fin cfg0.N, (cfg0.win 2).flush t = true ∧ i ∈ ((cfg0.win 2).blk t).view.set := by
  have h0 : (i 0).val < 8192 := (i 0).isLt
  have h1 : (i 1).val < 4096 := (i 1).isLt
  have hN : cfg0.N = 128 := N_0
  have hlt : (i 0).val / 2048 * 32 + (i 1).val / 2048 * 16 + 15 < cfg0.N := by rw [hN]; omega
  obtain ⟨-, -, -, -, e0, e1⟩ := block_of_point ⟨_, hlt⟩
  have e0' : win0_2.index ⟨_, hlt⟩ (0 : Fin 2) = ((i 0).val / 2048 * 32 + (i 1).val / 2048 * 16 + 15) / 32 := e0
  have e1' : win0_2.index ⟨_, hlt⟩ (1 : Fin 2) = ((i 0).val / 2048 * 32 + (i 1).val / 2048 * 16 + 15) / 16 % 2 := e1
  refine ⟨⟨_, hlt⟩, (flush0_2 _).mpr (by show ((i 0).val / 2048 * 32 + (i 1).val / 2048 * 16 + 15) % 16 = 15; omega), ?_⟩
  show i ∈ ((View.whole main_v4).slice (win0_2.rect ⟨_, hlt⟩)).set
  rw [View.set_slice_whole, Rect.mem_set_unit]
  intro a
  match a with
  | ⟨0, _⟩ =>
    show win0_2.index ⟨_, hlt⟩ (0 : Fin 2) * 2048 ≤ (i 0).val ∧ (i 0).val < win0_2.index ⟨_, hlt⟩ (0 : Fin 2) * 2048 + 2048
    rw [e0']; omega
  | ⟨1, _⟩ =>
    show win0_2.index ⟨_, hlt⟩ (1 : Fin 2) * 2048 ≤ (i 1).val ∧ (i 1).val < win0_2.index ⟨_, hlt⟩ (1 : Fin 2) * 2048 + 2048
    rw [e1']; omega

/-- So the array the kernel writes ends holding the product matrix. -/
theorem final (c : Dev nD) : (dats m 0 c).arrAt 2 cfg0.N = prodM m c :=
  (dats m 0 c).arrAt_eq_of_cover 2 (prodM m c) (flushed_eq m c) (covered c)

/-! ## The host lines around the kernel -/

/-- The activation matrix is the activations reshaped (the change of format before the reshape is the identity). -/
theorem actM_eq (c : Dev nD) :
    actM m c = shapeCast S8192x4096 (truncf (F := Ideal) .bf16 (m ((c : Thread nD τ).loc main_arg0)) bitsLt_bf16_f32)
      shapeCasts_S4x2048x4096_S8192x4096 := by
  show StableHlo.after hostOps0 (fun b => m (c, b)) (Proc.devRef .tc main_v3) = _
  after_results
  rfl

/-- The sign matrix is the weight's signs (again through an identity change of format). -/
theorem sgnM_eq (c : Dev nD) :
    sgnM m c = truncf (F := Ideal) .bf16 (Host.sign (m ((c : Thread nD τ).loc main_arg1))) bitsLt_bf16_f32 := by
  show StableHlo.after hostOps0 (fun b => m (c, b)) (Proc.devRef .tc main_v2) = _
  after_results

/-- Row b·2048 + s of the activation matrix is row (b, s) of the activations. -/
theorem actM_at (c : Dev nD) (i : Cert.Spec.SX.Idx) (k : Fin 4096) :
    at2 (actM m c) ((i 0).val * 2048 + (i 1).val) k.val = m ((c : Thread nD τ).loc main_arg0) (Cert.Spec.xAt i k) := by
  have h0 : (i 0).val < 4 := (i 0).isLt
  have h1 : (i 1).val < 2048 := (i 1).isLt
  have hlt : (i 0).val * 2048 + (i 1).val < 8192 := by omega
  refine (at2_eq (actM m c) (ix2 ⟨(i 0).val * 2048 + (i 1).val, hlt⟩ k) _ _ rfl rfl).symm.trans ?_
  rw [actM_eq]
  refine (shapeCast_apply _ _ _ (Cert.Spec.xAt i k) ?_).trans rfl
  rw [Shape.rowMajor_val_three, Shape.rowMajor_val_two]
  rfl

/-- Row o of the sign matrix is the signs of row o of the weight. -/
theorem sgnM_at (c : Dev nD) (i : Cert.Spec.SX.Idx) (k : Fin 4096) :
    at2 (sgnM m c) (i 2).val k.val = Ideal.sign (m ((c : Thread nD τ).loc main_arg1) (Cert.Spec.wAt i k)) := by
  refine (at2_eq (sgnM m c) (Cert.Spec.wAt i k) _ _ rfl rfl).symm.trans ?_
  rw [sgnM_eq]
  rfl

/-- The product matrix reshaped to (batch, sequence, output feature) is the specification. -/
theorem reshaped_eq (c : Dev nD) :
    shapeCast S4x2048x4096 (prodM m c) shapeCasts_S8192x4096_S4x2048x4096
      = Cert.Spec.out (m ((c : Thread nD τ).loc main_arg0)) (m ((c : Thread nD τ).loc main_arg1)) := by
  funext i
  have h0 : (i 0).val < 4 := (i 0).isLt
  have h1 : (i 1).val < 2048 := (i 1).isLt
  have h2 : (i 2).val < 4096 := (i 2).isLt
  have hlt : (i 0).val * 2048 + (i 1).val < 8192 := by omega
  refine (shapeCast_apply _ _ i (ix2 ⟨(i 0).val * 2048 + (i 1).val, hlt⟩ ⟨(i 2).val, h2⟩) ?_).trans ?_
  · rw [Shape.rowMajor_val_two, Shape.rowMajor_val_three]
    rfl
  · show dotTo (actM m c) (sgnM m c) 4096 ((i 0).val * 2048 + (i 1).val) (i 2).val = _
    rw [dotTo_fin]
    unfold Cert.Spec.out
    refine Finset.sum_congr rfl fun k _ => ?_
    rw [actM_at m c i k, sgnM_at m c i k]

/-- The line after the kernel reshapes the array the kernel wrote. -/
theorem tail_eq (c : Dev nD) :
    Pipeline.afterTail₀ cfgs (dats m) 0 (V0 m) [hostOps1] c main_v5
      = shapeCast S4x2048x4096 (prodM m c) shapeCasts_S8192x4096_S4x2048x4096 := by
  unfold Pipeline.afterTail₀
  show StableHlo.after hostOps1 _ (Proc.devRef .tc main_v5) = _
  after_results
  rw [show Pipeline.withArrays (cfgs 0).spec c (V0 m c) (fun w => (dats m 0 c).arrAt w (cfgs 0).N) (Proc.devRef .tc main_v4)
      = prodM m c from (Pipeline.withArrays_arr spec0 launch0.win.arr_inj c _ _ 2).trans (final m c)]
  rfl

/-! ## The run -/

/-- Every weakly fair execution of the idealized kernel program terminates with the result at the specification of
    the two arguments, and the arguments unchanged. -/
theorem run : θ_run defs (onTc (τ := τ) (main (F := Ideal))) ⟨m, fun _ => 0, ρ⟩ fun r => ∀ c : Dev nD,
      r.2.mem ((c.tc : Thread nD τ).loc main_v5)
        = Cert.Spec.out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v5 (Pipeline.mem_restRefs_of main_v5 (by decide) (by decide))).trans ((tail_eq m c).trans (reshaped_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Result

end
-- ==== Proof.RefSide.lean ====
/-
  The reference computes the specification. It forms the weight as w + (sgn w − w) and contracts the
  activations against it over the 4096 input features. With a real w that weight is sgn w entry by entry,
  so each term of the contraction is x[b, s, k] · sgn(w[o, k]).
-/
import proofs.«121071_j57492432224590_2_alg».proof.Proof.Gen.ReferenceIdeal.Read
import proofs.«121071_j57492432224590_2_alg».proof.Proof.Spec

noncomputable section

namespace Cert.ReferenceIdeal.RefValue

open Cert.ReferenceIdeal Cert.ReferenceIdeal.Read Idealize.ShloMosaic

/-- The contraction reads the activations at (b, s, k) … -/
theorem lidx_eq (i : S4x2048x4096.Idx) (k : Fin 4096) : lidx_main_v3 i k = Cert.Spec.xAt i k :=
  funext fun a => by
    match a with
    | ⟨0, _⟩ => rfl
    | ⟨1, _⟩ => rfl
    | ⟨2, _⟩ => rfl

/-- … and the weight at (o, k). -/
theorem ridx_eq (i : S4x2048x4096.Idx) (k : Fin 4096) : ridx_main_v3 i k = Cert.Spec.wAt i k :=
  funext fun a => by
    match a with
    | ⟨0, _⟩ => rfl
    | ⟨1, _⟩ => rfl

/-- With a real weight the reference's result is the specification. -/
theorem result_eq (x : S4x2048x4096.Idx → EReal) (w : S4096x4096.Idx → EReal)
    (hw : ∀ j, ∃ r : ℝ, w j = (r : EReal)) :
    val_main_v3 (F := Ideal) x w = Cert.Spec.out x w := by
  funext i
  rw [val_main_v3_apply]
  unfold Cert.Spec.out
  refine Finset.sum_congr rfl fun k _ => ?_
  rw [val_main_v2_apply, val_main_v1_apply, val_main_v0_apply, lidx_eq, ridx_eq]
  obtain ⟨r, hr⟩ := hw (Cert.Spec.wAt i k)
  show x (Cert.Spec.xAt i k)
      * (w (Cert.Spec.wAt i k) + (Ideal.sign (w (Cert.Spec.wAt i k)) - w (Cert.Spec.wAt i k))) = _
  rw [hr, Cert.Spec.proxy_eq_sign]

end Cert.ReferenceIdeal.RefValue

end
-- ==== Proof.Finite.lean ====
/-
  The precondition read back. It says of each input array that every entry's absolute value is below +∞
  (a conjunction over all entries, then the conjunction of the two arrays' answers). On the extended reals
  |a| = max a (−a) is +∞ exactly at the two infinities, so an entry that passes is a real number. Only the
  weight's finiteness is used: it is what makes w + (sgn w − w) equal sgn w.
-/
import proofs.«121071_j57492432224590_2_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Finite

open Cert.Pre_finite_inputs Cert.Pre_finite_inputs.Gen Idealize.ShloMosaic

/-- The rank-0 shape has one index. -/
instance : Subsingleton S_.Idx := ⟨fun a b => funext fun d => d.elim0⟩

/-- The pattern the precondition compares with denotes +∞. -/
theorem inf_pattern : Ideal.ofBits .f32 0x7F800000#32 = ⊤ := by simp [Ideal.ofBits, Ideal.ieee]

/-- An extended real whose absolute value is below +∞ is a real number. -/
theorem real_of_abs_lt_inf (a : EReal)
    (h : Ideal.cmp .olt (max a (-a)) (Ideal.ofBits .f32 0x7F800000#32) = 1#1) : ∃ r : ℝ, a = (r : EReal) := by
  rw [inf_pattern] at h
  induction a using EReal.rec with
  | bot => simp [Ideal.cmp] at h
  | top => simp [Ideal.cmp] at h
  | coe r => exact ⟨r, rfl⟩

/-- Under the precondition every entry of the weight is a real number. -/
theorem weight_real (x : FVec Ideal S4x2048x4096 .f32) (w : FVec Ideal S4096x4096 .f32)
    (h : Cert.Pre_finite_inputs.fn (F := Ideal) x w = fun _ => 1#1) (j : S4096x4096.Idx) :
    ∃ r : ℝ, w j = (r : EReal) := by
  have h0 := congrFun h ValueIdx.ix0
  dsimp only [Cert.Pre_finite_inputs.fn] at h0
  obtain ⟨-, h7⟩ := IntOp.andi_eq_one.1 h0
  have hj := Host.reduce_andi_all _ _ _ _ ValueIdx.ix0 h7 j
  exact real_of_abs_lt_inf (w j) hj

end Cert.Pre_finite_inputs.Finite

end
-- ==== Proof.lean ====
/-
  A linear layer with a sign-binarized weight, as a tiled kernel and as one contraction.

  The kernel casts the activations x[b, s, ·] and the signs sgn(w[o, ·]) to a narrower format (the identity on
  the extended reals), views the activations as an 8192 × 4096 matrix, and forms the 8192 × 4096 product
  matrix in 2048 × 2048 blocks, each accumulated from zero over sixteen blocks of 256 contraction positions;
  the result is that matrix viewed as (batch, sequence, output feature). The reference contracts the
  activations with w + (sgn w − w) over all 4096 positions at once.

  Both are out[b, s, o] = Σ_k x[b, s, k] · sgn(w[o, k]) (Proof/Spec.lean):
  * the kernel, because after the j-th of a block's sixteen steps an entry holds the dot product over the
    first 256·(j+1) positions (Proof/Accum.lean, by induction on the grid point over Proof/Body.lean and
    Proof/Step.lean), so the block written back after the last step holds all 4096 (Proof/Result.lean) —
    regrouping a sum of extended reals needs no hypothesis;
  * the reference, because w + (sgn w − w) = sgn w for a real w (Proof/RefSide.lean), and the precondition
    says every entry of w is real (Proof/Finite.lean). At an infinite w the two sides differ, which is
    why the claim is stated of finite inputs.

  The three frame claims are the generated frame proofs of the two kernel programs and the reference's
  generated run with its result dropped. The idealized kernel program is the kernel program's own text read
  over the extended reals, with no operation replaced, so the claim relating the two has nothing to state.
-/
import proofs.«121071_j57492432224590_2_alg».proof.Defs
import proofs.«121071_j57492432224590_2_alg».proof.Proof.Gen.Kernel
import proofs.«121071_j57492432224590_2_alg».proof.Proof.Gen.Kernel.Frame
import proofs.«121071_j57492432224590_2_alg».proof.Proof.Gen.KernelIdeal
import proofs.«121071_j57492432224590_2_alg».proof.Proof.Gen.KernelIdeal.Frame
import proofs.«121071_j57492432224590_2_alg».proof.Proof.Gen.ReferenceIdeal
import proofs.«121071_j57492432224590_2_alg».proof.Proof.Gen.ReferenceIdeal.Run
import proofs.«121071_j57492432224590_2_alg».proof.Proof.Gen.ReferenceIdeal.Read
import proofs.«121071_j57492432224590_2_alg».proof.Proof.Gen.Pre_finite_inputs
import proofs.«121071_j57492432224590_2_alg».proof.Proof.Result
import proofs.«121071_j57492432224590_2_alg».proof.Proof.RefSide
import proofs.«121071_j57492432224590_2_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the two arguments, with the weight finite, the kernel's result array and the
    reference's both end at the specification of the arguments. -/
theorem algebraic : Cert.algebraic_KernelIdeal_ReferenceIdeal := by
  intro m ρ m' ρ' hpre hagree
  refine ⟨fun c => Cert.Spec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Result.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v3_eq, (hagree c).1, (hagree c).2]
  exact Cert.ReferenceIdeal.RefValue.result_eq _ _
    (Cert.Pre_finite_inputs.Finite.weight_real _ _ (hpre c))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
